-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S128x96 : Shape := ⟨2, ![128, 96]⟩
abbrev S40x256 : Shape := ⟨2, ![40, 256]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S40x256 : S_.BroadcastsInDim S40x256 (![] : Fin 0 → Fin S40x256.rank)
  reducesTo_S40x256_S_d0_1 : S40x256.ReducesTo [0, 1] S_

variable [Facts]

def fn_part1 {F : FTy → Type} [FloatOps F] (main_v13 : IVec S_ 1) (main_v16 : IVec S40x256 1) : IVec S_ 1 :=
  let main_c_5 : IVec S_ 1 := constantI S_ 1 1#1
  let main_v17 : IVec S_ 1 := (fun x v => Host.reduce IntOp.andi x v reducesTo_S40x256_S_d0_1 h_S_) main_v16 main_c_5
  let main_v18 : IVec S_ 1 := andi main_v13 main_v17
  main_v18

def fn {F : FTy → Type} [FloatOps F] (main_arg0 : FVec F S50000x96 .f32) (main_arg1 : IVec S800000 32) (main_arg2 : IVec S800000 32) (main_arg3 : FVec F S128x96 .f32) (main_arg4 : FVec F S128x96 .f32) (main_arg5 : FVec F S40x256 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S128x96 .f32 := Host.absf main_arg3
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S128x96 .f32 := Host.absf main_arg4
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S40x256 .f32 := Host.absf main_arg5
  let main_cst_4 : FVec F S_ .f32 := constant S_ .f32 0x7F800000#32
  let main_v15 : FVec F S40x256 .f32 := broadcastInDim S40x256 ![] bcast_S_S40x256 main_cst_4
  let main_v16 : IVec S40x256 1 := cmpf .olt main_v14 main_v15
  fn_part1 (F := F) main_v13 main_v16
-- ==== Kernel.lean ====
abbrev S50000x96 : Shape := ⟨2, ![50000, 96]⟩
abbrev S800000 : Shape := ⟨1, ![800000]⟩
abbrev S128x96 : Shape := ⟨2, ![128, 96]⟩
abbrev S40x256 : Shape := ⟨2, ![40, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S40x128 : Shape := ⟨2, ![40, 128]⟩
abbrev S50000x40 : Shape := ⟨2, ![50000, 40]⟩
abbrev S5000x96 : Shape := ⟨2, ![5000, 96]⟩
abbrev S5000x1 : Shape := ⟨2, ![5000, 1]⟩
abbrev S5000x40 : Shape := ⟨2, ![5000, 40]⟩
abbrev S96x128 : Shape := ⟨2, ![96, 128]⟩
abbrev S5000x128 : Shape := ⟨2, ![5000, 128]⟩
abbrev S128x40 : Shape := ⟨2, ![128, 40]⟩

abbrev nBuf : Space → Nat
  | .hbm => 61
  | .vmem => 12
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S128x96, .f32⟩
  | .hbm, ⟨4, _⟩ => ⟨S128x96, .f32⟩
  | .hbm, ⟨5, _⟩ => ⟨S40x256, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x96, .f32⟩
  | .hbm, ⟨24, _⟩ => ⟨S50000x96, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S50000x1, .f32⟩
  | .hbm, ⟨39, _⟩ => ⟨S50000x96, .f32⟩
  | .hbm, ⟨40, _⟩ => ⟨S50000x96, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x96, .f32⟩
  | .hbm, ⟨50, _⟩ => ⟨S_, .f32⟩
  | .hbm, ⟨51, _⟩ => ⟨S50000x96, .f32⟩
  | .hbm, ⟨52, _⟩ => ⟨S800000x1, .i32⟩
  | .hbm, ⟨53, _⟩ => ⟨S50000x96, .f32⟩
  | .hbm, ⟨54, _⟩ => ⟨S128x96, .bf16⟩
  | .hbm, ⟨55, _⟩ => ⟨S128x96, .bf16⟩
  | .hbm, ⟨56, _⟩ => ⟨S40x128, .f32⟩
  | .hbm, ⟨57, _⟩ => ⟨S40x128, .bf16⟩
  | .hbm, ⟨58, _⟩ => ⟨S40x128, .f32⟩
  | .hbm, ⟨59, _⟩ => ⟨S40x128, .bf16⟩
  | .hbm, ⟨60, _⟩ => ⟨S50000x40, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S5000x1, .f32⟩
  | .local _ .vmem, ⟨5, _⟩ => ⟨S5000x1, .f32⟩
  | .local _ .vmem, ⟨6, _⟩ => ⟨S128x96, .bf16⟩
  | .local _ .vmem, ⟨7, _⟩ => ⟨S128x96, .bf16⟩
  | .local _ .vmem, ⟨8, _⟩ => ⟨S40x128, .bf16⟩
  | .local _ .vmem, ⟨9, _⟩ => ⟨S40x128, .bf16⟩
  | .local _ .vmem, ⟨10, _⟩ => ⟨S5000x40, .f32⟩
  | .local _ .vmem, ⟨11, _⟩ => ⟨S5000x40, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  bitsLt_bf16_f32 : FTy.bits .bf16 < FTy.bits .f32
  slices_S40x256_S40x128_0_0 : S40x256.Slices ![0, 0] S40x128
  slices_S40x256_S40x128_0_128 : S40x256.Slices ![0, 128] S40x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S128x96_S128x96_0_0 : ∀ a, (![0, 0] : Fin 2 → Nat) a + S128x96.size a ≤ S128x96.size a
  h_S128x96 : 0 < S128x96.numel
  shapeCasts_S128x96_S128x96 : S128x96.ShapeCasts S128x96
  transposes_S128x96_p1_0_S96x128 : S128x96.Transposes [1, 0] S96x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S40x128_S40x128_0_0 : ∀ a, (![0, 0] : Fin 2 → Nat) a + S40x128.size a ≤ S40x128.size a
  h_S40x128 : 0 < S40x128.numel
  shapeCasts_S40x128_S40x128 : S40x128.ShapeCasts S40x128
  transposes_S40x128_p1_0_S128x40 : S40x128.Transposes [1, 0] S128x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x128_S5000x128_1_0_0_1_n_n_wf : DotDims.WF S5000x96 S96x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S128x96.size a
  hwx0_3 : ∀ i : grid0.Coords, EltTy.bits .bf16 = 32 ∨ (Rect.block (s := S128x96) S128x96.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x96.size a ≤ S128x96.size a
  hwx0_4 : ∀ i : grid0.Coords, EltTy.bits .bf16 = 32 ∨ (Rect.block (s := S128x96) S128x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x128.size a ≤ S40x128.size a
  hwx0_5 : ∀ i : grid0.Coords, EltTy.bits .bf16 = 32 ∨ (Rect.block (s := S40x128) S40x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40x128.size a ≤ S40x128.size a
  hwx0_6 : ∀ i : grid0.Coords, EltTy.bits .bf16 = 32 ∨ (Rect.block (s := S40x128) S40x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x40.size a ≤ S50000x40.size a
  hwx0_7 : ∀ i : grid0.Coords, EltTy.bits .f32 = 32 ∨ (Rect.block (s := S50000x40) S5000x40.size (cc0_transform_7 i) (hinb0_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S128x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S40x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S40x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S5000x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S128x96 : Shape := ⟨2, ![128, 96]⟩
abbrev S40x256 : Shape := ⟨2, ![40, 256]⟩
abbrev S96x128 : Shape := ⟨2, ![96, 128]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S50000x256 : Shape := ⟨2, ![50000, 256]⟩
abbrev S256x40 : Shape := ⟨2, ![256, 40]⟩
abbrev S50000x40 : Shape := ⟨2, ![50000, 40]⟩

abbrev nBuf : Space → Nat
  | .hbm => 67
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S128x96, .f32⟩
  | .hbm, ⟨4, _⟩ => ⟨S128x96, .f32⟩
  | .hbm, ⟨5, _⟩ => ⟨S40x256, .f32⟩
  | .hbm, ⟨6, _⟩ => ⟨S96x128, .f32⟩
  | .hbm, ⟨7, _⟩ => ⟨S50000x128, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x96, .f32⟩
  | .hbm, ⟨26, _⟩ => ⟨S50000x96, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x96, .f32⟩
  | .hbm, ⟨36, _⟩ => ⟨S_, .f32⟩
  | .hbm, ⟨37, _⟩ => ⟨S50000x96, .f32⟩
  | .hbm, ⟨38, _⟩ => ⟨S800000x1, .i32⟩
  | .hbm, ⟨39, _⟩ => ⟨S50000x96, .f32⟩
  | .hbm, ⟨40, _⟩ => ⟨S50000x1, .f32⟩
  | .hbm, ⟨41, _⟩ => ⟨S50000x96, .f32⟩
  | .hbm, ⟨42, _⟩ => ⟨S50000x96, .f32⟩
  | .hbm, ⟨43, _⟩ => ⟨S50000x1, .f32⟩
  | .hbm, ⟨44, _⟩ => ⟨S50000x96, .f32⟩
  | .hbm, ⟨45, _⟩ => ⟨S50000x96, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x96, .f32⟩
  | .hbm, ⟨55, _⟩ => ⟨S_, .f32⟩
  | .hbm, ⟨56, _⟩ => ⟨S50000x96, .f32⟩
  | .hbm, ⟨57, _⟩ => ⟨S800000x1, .i32⟩
  | .hbm, ⟨58, _⟩ => ⟨S50000x96, .f32⟩
  | .hbm, ⟨59, _⟩ => ⟨S50000x1, .f32⟩
  | .hbm, ⟨60, _⟩ => ⟨S50000x96, .f32⟩
  | .hbm, ⟨61, _⟩ => ⟨S50000x96, .f32⟩
  | .hbm, ⟨62, _⟩ => ⟨S96x128, .f32⟩
  | .hbm, ⟨63, _⟩ => ⟨S50000x128, .f32⟩
  | .hbm, ⟨64, _⟩ => ⟨S50000x256, .f32⟩
  | .hbm, ⟨65, _⟩ => ⟨S256x40, .f32⟩
  | .hbm, ⟨66, _⟩ => ⟨S50000x40, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  transposes_S128x96_S96x128_1_0 : S128x96.Transposes [1, 0] S96x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  concatenates_S50000x128_S50000x128_S50000x256_d1 : Shape.Concatenates [S50000x128, S50000x128] S50000x256 1
  transposes_S40x256_S256x40_1_0 : S40x256.Transposes [1, 0] S256x40
  dot_S50000x96_S96x128_S50000x128_1_0_0_1_n_n_wf : DotDims.WF S50000x96 S96x128 S50000x128 [1] [0] [0] [1] [] []
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x256_S256x40_S50000x40_1_0_0_1_n_n_wf : DotDims.WF S50000x256 S256x40 S50000x40 [1] [0] [0] [1] [] []

variable [Facts₀]

def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KernelProducts.lean ====
/-
  The kernel's two block products at an output entry, on the extended reals.

  The body contracts a block of rows against a TRANSPOSED weight matrix: a [5000, 96] block against the transpose of a
  [128, 96] matrix (twice: the plain branch and the propagated branch), then a [5000, 128] block against the transpose of
  a [40, 128] half of the projection (twice). Into a zero accumulator such a product at row p and column k is the plain
  sum over the contracted coordinate j of  lhs (p, j) * w (k, j): the contraction index has one axis, which is re-indexed
  by its coordinate; the left operand is read at (p, j), the transposed right operand at (j, k), that is the weight at (k, j).
-/
import proofs.«139098_j30683246363241_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.ValueIdx

/-! ## The operand indices of the [5000, 96] x [96, 128] product -/

theorem hid_lhs_0 (i : S5000x128.Idx) (q : dot_S5000x96_S96x128_S5000x128_1_0_0_1_n_n.contr.Idx) : (dot_S5000x96_S96x128_S5000x128_1_0_0_1_n_n.lhsIdx i q 0).val = (i 0).val := by
  unfold DotDims.lhsIdx
  rw [dif_neg (show ¬(0 : Fin S5000x96.rank) ∈ dot_S5000x96_S96x128_S5000x128_1_0_0_1_n_n.lhsBatch by decide), dif_pos (show (0 : Fin S5000x96.rank) ∈ dot_S5000x96_S96x128_S5000x128_1_0_0_1_n_n.lhsNonContracting by decide)]
  rfl
theorem hid_lhs_1 (i : S5000x128.Idx) (q : dot_S5000x96_S96x128_S5000x128_1_0_0_1_n_n.contr.Idx) : (dot_S5000x96_S96x128_S5000x128_1_0_0_1_n_n.lhsIdx i q 1).val = (q ⟨0, by decide⟩).val :=
  dot_S5000x96_S96x128_S5000x128_1_0_0_1_n_n.lhsIdx_val_of_single rfl i q
theorem hid_rhs_0 (i : S5000x128.Idx) (q : dot_S5000x96_S96x128_S5000x128_1_0_0_1_n_n.contr.Idx) : (dot_S5000x96_S96x128_S5000x128_1_0_0_1_n_n.rhsIdx i q 0).val = (q ⟨0, by decide⟩).val :=
  dot_S5000x96_S96x128_S5000x128_1_0_0_1_n_n.rhsIdx_val_of_single rfl i q
theorem hid_rhs_1 (i : S5000x128.Idx) (q : dot_S5000x96_S96x128_S5000x128_1_0_0_1_n_n.contr.Idx) : (dot_S5000x96_S96x128_S5000x128_1_0_0_1_n_n.rhsIdx i q 1).val = (i 1).val := by
  unfold DotDims.rhsIdx
  rw [dif_neg (show ¬(1 : Fin S96x128.rank) ∈ dot_S5000x96_S96x128_S5000x128_1_0_0_1_n_n.rhsBatch by decide), dif_pos (show (1 : Fin S96x128.rank) ∈ dot_S5000x96_S96x128_S5000x128_1_0_0_1_n_n.rhsNonContracting by decide)]
  rfl

/-- A hidden unit of a row block: row p of the block against row k of the weight matrix. -/
theorem hidden_apply {φ₁ φ₂ : FTy} (lhs : FVec Ideal S5000x96 φ₁) (w : FVec Ideal S128x96 φ₂)
    (h1 : S128x96.ShapeCasts S128x96) (h2 : S128x96.Transposes [1, 0] S96x128) (p : Fin 5000) (k : Fin 128) :
    matmul (F := Ideal) dot_S5000x96_S96x128_S5000x128_1_0_0_1_n_n none lhs (transpose S96x128 [1, 0] (shapeCast S128x96 w h1) h2)
        (constant (F := Ideal) S5000x128 .f32 0x00000000#32) (ix2 p k)
      = ∑ j : Fin 96, lhs (ix2 p j) * w (ix2 k j) := by
  refine (Ideal.matmul_constant_zero_apply dot_S5000x96_S96x128_S5000x128_1_0_0_1_n_n none lhs _ (ix2 p k)).trans ?_
  rw [← Equiv.sum_comp (contrEquiv1 dot_S5000x96_S96x128_S5000x128_1_0_0_1_n_n 96 rfl rfl).symm]
  refine Finset.sum_congr rfl fun j _ => ?_
  have hj := contrEquiv1_symm_val dot_S5000x96_S96x128_S5000x128_1_0_0_1_n_n 96 rfl rfl j
  have el : dot_S5000x96_S96x128_S5000x128_1_0_0_1_n_n.lhsIdx (ix2 p k) ((contrEquiv1 dot_S5000x96_S96x128_S5000x128_1_0_0_1_n_n 96 rfl rfl).symm j) = ix2 p j := funext fun a => Fin.ext (by
    match a with
    | ⟨0, _⟩ => exact hid_lhs_0 _ _
    | ⟨1, _⟩ => exact (hid_lhs_1 _ _).trans hj)
  have er : dot_S5000x96_S96x128_S5000x128_1_0_0_1_n_n.rhsIdx (ix2 p k) ((contrEquiv1 dot_S5000x96_S96x128_S5000x128_1_0_0_1_n_n 96 rfl rfl).symm j) = ix2 j k := funext fun a => Fin.ext (by
    match a with
    | ⟨0, _⟩ => exact (hid_rhs_0 _ _).trans hj
    | ⟨1, _⟩ => exact hid_rhs_1 _ _)
  rw [el, er, shapeCast_self]
  exact congrArg (lhs (ix2 p j) * ·) (transpose_apply [1, 0] w h2 (ix2 j k) (ix2 k j) (fun b => match b with
    | ⟨0, _⟩ => rfl
    | ⟨1, _⟩ => rfl))

/-! ## The operand indices of the [5000, 128] x [128, 40] product -/

theorem out_lhs_0 (i : S5000x40.Idx) (q : dot_S5000x128_S128x40_S5000x40_1_0_0_1_n_n.contr.Idx) : (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem out_lhs_1 (i : S5000x40.Idx) (q : dot_S5000x128_S128x40_S5000x40_1_0_0_1_n_n.contr.Idx) : (dot_S5000x128_S128x40_S5000x40_1_0_0_1_n_n.lhsIdx i q 1).val = (q ⟨0, by decide⟩).val :=
  dot_S5000x128_S128x40_S5000x40_1_0_0_1_n_n.lhsIdx_val_of_single rfl i q
theorem out_rhs_0 (i : S5000x40.Idx) (q : dot_S5000x128_S128x40_S5000x40_1_0_0_1_n_n.contr.Idx) : (dot_S5000x128_S128x40_S5000x40_1_0_0_1_n_n.rhsIdx i q 0).val = (q ⟨0, by decide⟩).val :=
  dot_S5000x128_S128x40_S5000x40_1_0_0_1_n_n.rhsIdx_val_of_single rfl i q
theorem out_rhs_1 (i : S5000x40.Idx) (q : dot_S5000x128_S128x40_S5000x40_1_0_0_1_n_n.contr.Idx) : (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A class score of a row block: row p of the hidden block against row q of a half of the projection. -/
theorem projected_apply {φ₁ φ₂ : FTy} (lhs : FVec Ideal S5000x128 φ₁) (w : FVec Ideal S40x128 φ₂)
    (h1 : S40x128.ShapeCasts S40x128) (h2 : S40x128.Transposes [1, 0] S128x40) (p : Fin 5000) (q : Fin 40) :
    matmul (F := Ideal) dot_S5000x128_S128x40_S5000x40_1_0_0_1_n_n none lhs (transpose S128x40 [1, 0] (shapeCast S40x128 w h1) h2)
        (constant (F := Ideal) S5000x40 .f32 0x00000000#32) (ix2 p q)
      = ∑ k : Fin 128, lhs (ix2 p k) * w (ix2 q k) := by
  refine (Ideal.matmul_constant_zero_apply dot_S5000x128_S128x40_S5000x40_1_0_0_1_n_n none lhs _ (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact out_lhs_0 _ _
    | ⟨1, _⟩ => exact (out_lhs_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (out_rhs_0 _ _).trans hk
    | ⟨1, _⟩ => exact out_rhs_1 _ _)
  rw [el, er, shapeCast_self]
  exact congrArg (lhs (ix2 p k) * ·) (transpose_apply [1, 0] w h2 (ix2 k q) (ix2 q k) (fun b => match b with
    | ⟨0, _⟩ => rfl
    | ⟨1, _⟩ => rfl))

end Cert.KernelIdeal.Entry

end
-- ==== Proof.NormLaw.lean ====
/-
  The algebra that joins the two programs, on the extended reals, with no program in sight.

  Both programs compute, for a node r and a class c,
      sum over k < 256 of  cat r k * Wp c k,
  where cat r k is, for k < 128, the k-th hidden unit of the plain branch, sum_j feat r j * Wlin k j, and for k >= 128 the
  (k - 128)-th hidden unit of the propagated branch. They differ in two places only. The kernel adds the two halves of the
  sum over k separately, which is a regrouping of one finite sum. And the kernel scales the propagated branch by the node's
  normalisation n r AFTER contracting with Wsgc, (sum_j g r j * Wsgc k j) * n r, where the reference scales each feature
  BEFORE, sum_j (g r j * n r) * Wsgc k j. On the extended reals a factor moves across a sum only under a side condition
  (top + bot = bot breaks it in general); it does when the factor is a NON-NEGATIVE REAL. That is the case here whatever the
  degree is: n r = pow (if deg r > 0 then deg r else 1) (-1/2), and a power with exponent -1/2 of 1, of a positive real, or of
  top is 1, a positive real, or 0.
-/
import Idealize.ShloMosaic.PureOps.Ideal

noncomputable section

namespace Cert.Hand

open Idealize.ShloMosaic

/-- A non-negative real factor moves across a finite sum of extended reals. -/
theorem sum_mul_coe_of_nonneg {ι : Type} (s : Finset ι) (b : ι → EReal) {x : ℝ} (hx : 0 ≤ x) :
    (∑ j ∈ s, b j) * (x : EReal) = ∑ j ∈ s, b j * (x : EReal) := by
  classical
  induction s using Finset.induction_on with
  | empty => simp
  | insert a s ha ih =>
    rw [Finset.sum_insert ha, Finset.sum_insert ha, ← ih]
    exact EReal.right_distrib_of_nonneg_of_ne_top (EReal.coe_nonneg.2 hx) (EReal.coe_ne_top x) _ _

/-- The comparison "d > 0" selects between two values as the order on the extended reals says. -/
theorem select_gt_zero (d a b : EReal) :
    Scalar.select (Ideal.cmp .ogt d 0) a b = if (0 : EReal) < d then a else b := by
  unfold Scalar.select Ideal.cmp
  by_cases h : (0 : EReal) < d
  · simp [h]
  · simp [h]

/-- The normalisation factor is a non-negative real whatever the degree is: the base is 1, a positive real or top, and the
    exponent is a negative real. -/
theorem norm_is_nonneg_real (d : EReal) {y : ℝ} (hy : y < 0) :
    ∃ x : ℝ, 0 ≤ x ∧ Ideal.pow (Scalar.select (Ideal.cmp .ogt d 0) d 1) (y : EReal) = (x : EReal) := by
  rw [select_gt_zero]
  have one : Ideal.pow 1 (y : EReal) = ((1 : ℝ) : EReal) := by
    rw [← EReal.coe_one, Ideal.pow_coe_coe]
    exact congrArg _ (Real.one_rpow y)
  induction d using EReal.rec with
  | bot => exact ⟨1, zero_le_one, by rw [if_neg (by simp)]; exact one⟩
  | top =>
    refine ⟨0, le_refl _, ?_⟩
    rw [if_pos (by simp), Ideal.pow_top, if_neg (by exact_mod_cast not_lt.2 hy.le), if_neg (by exact_mod_cast hy.ne)]
    rfl
  | coe r =>
    by_cases h : (0 : EReal) < (r : EReal)
    · rw [if_pos h, Ideal.pow_coe_coe]
      exact ⟨Real.rpow r y, Real.rpow_nonneg (by exact_mod_cast h.le) y, rfl⟩
    · rw [if_neg h]
      exact ⟨1, zero_le_one, one⟩

/-- The three float literals of the normalisation: 0.0, 1.0 and -0.5 denote 0, 1 and -1/2. -/
theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

/-- One entry of the kernel's result: the two halves of the projection added, the propagated branch scaled after its
    contraction. -/
def splitForm (a g : Fin 96 → EReal) (n : EReal) (wl ws : Fin 128 → Fin 96 → EReal) (wpl wps : Fin 128 → EReal) : EReal :=
  (∑ k : Fin 128, (∑ j : Fin 96, a j * wl k j) * wpl k) + (∑ k : Fin 128, ((∑ j : Fin 96, g j * ws k j) * n) * wps k)

/-- The expression is a function of its seven arguments. -/
theorem splitForm_congr {a a' g g' : Fin 96 → EReal} {n n' : EReal} {wl wl' ws ws' : Fin 128 → Fin 96 → EReal}
    {wpl wpl' wps wps' : Fin 128 → EReal} (h1 : a = a') (h2 : g = g') (h3 : n = n') (h4 : wl = wl') (h5 : ws = ws')
    (h6 : wpl = wpl') (h7 : wps = wps') : splitForm a g n wl ws wpl wps = splitForm a' g' n' wl' ws' wpl' wps' := by
  subst h1 h2 h3 h4 h5 h6 h7; rfl

/-- The hidden vector the reference concatenates: the plain branch on the first 128 units, the propagated branch, each
    feature scaled before the contraction, on the last 128. -/
def catForm (a g : Fin 96 → EReal) (n : EReal) (wl ws : Fin 128 → Fin 96 → EReal) (k : Fin 256) : EReal :=
  if h : k.val < 128 then ∑ j : Fin 96, a j * wl ⟨k.val, h⟩ j
  else ∑ j : Fin 96, (g j * n) * ws ⟨k.val - 128, by have := k.isLt; omega⟩ j

/-- One entry of the reference's result: the concatenated hidden vector against a row of the projection. -/
def joinedForm (a g : Fin 96 → EReal) (n : EReal) (wl ws : Fin 128 → Fin 96 → EReal) (wp : Fin 256 → EReal) : EReal :=
  ∑ k : Fin 256, catForm a g n wl ws k * wp k

/-- The two are equal when the normalisation factor is a non-negative real. -/
theorem splitForm_eq_joinedForm (a g : Fin 96 → EReal) {x : ℝ} (hx : 0 ≤ x) (wl ws : Fin 128 → Fin 96 → EReal)
    (wp : Fin 256 → EReal) :
    splitForm a g (x : EReal) wl ws (fun k => wp ⟨k.val, by have := k.isLt; omega⟩)
        (fun k => wp ⟨128 + k.val, by have := k.isLt; omega⟩)
      = joinedForm a g (x : EReal) wl ws wp := by
  unfold splitForm joinedForm
  rw [show (∑ k : Fin 256, catForm a g (x : EReal) wl ws k * wp k)
      = ∑ k : Fin (128 + 128), catForm a g (x : EReal) wl ws k * wp k from rfl, Fin.sum_univ_add]
  refine congrArg₂ (· + ·) (Finset.sum_congr rfl fun k _ => ?_) (Finset.sum_congr rfl fun k _ => ?_)
  · have hk : (Fin.castAdd 128 k : Fin (128 + 128)).val < 128 := k.isLt
    show _ = catForm a g (x : EReal) wl ws (Fin.castAdd 128 k) * wp (Fin.castAdd 128 k)
    unfold catForm
    rw [dif_pos hk]
    rfl
  · have hk : ¬ (Fin.natAdd 128 k : Fin (128 + 128)).val < 128 := by simp
    show _ = catForm a g (x : EReal) wl ws (Fin.natAdd 128 k) * wp (Fin.natAdd 128 k)
    unfold catForm
    rw [dif_neg hk, sum_mul_coe_of_nonneg _ _ hx]
    have e : (⟨(Fin.natAdd 128 k : Fin (128 + 128)).val - 128, by simp⟩ : Fin 128) = k :=
      Fin.ext (by simp)
    refine congrArg₂ (· * ·) (Finset.sum_congr rfl fun j _ => ?_) rfl
    rw [e]
    exact mul_right_comm _ _ _

end Cert.Hand

end
-- ==== Proof.KernelEntry.lean ====
/-
  One entry of what the kernel body stores, from the blocks it loads.

  At a grid point the body loads a block of 5000 rows of the features, the same rows of the propagated features, the
  same rows of the normalisation column, and the four weight matrices whole. It stores, at row p and class q,
      sum_k (sum_j feat (p, j) * Wlin (k, j)) * WpL (q, k)  +  sum_k ((sum_j g (p, j) * Wsgc (k, j)) * n (p, 0)) * WpS (q, k):
  two hidden vectors, the second scaled by the row's normalisation AFTER its contraction, each projected on its half of
  the projection, the two projections added. The roundings to bf16 on the way into each product are the identity on the
  extended reals.
-/
import proofs.«139098_j30683246363241_2_alg».proof.Proof.Gen.KernelIdeal.Skeleton
import proofs.«139098_j30683246363241_2_alg».proof.Proof.KernelProducts
import proofs.«139098_j30683246363241_2_alg».proof.Proof.NormLaw

noncomputable section

namespace Cert.KernelIdeal.Entry

open Cert.KernelIdeal Cert.KernelIdeal.Gen Idealize.ShloMosaic Idealize.ShloMosaic.ValueIdx

/-- The normalisation column, broadcast along the hidden units, reads the row's one entry. -/
theorem column_apply {α : Type} (v : S5000x1.Idx → α) (h : S5000x1.Broadcasts S5000x128) (p : Fin 5000) (k : Fin 128) :
    broadcastTo S5000x128 v h (ix2 p k) = v (ix2 p 0) :=
  broadcastTo_apply v h (ix2 p k) (ix2 p 0) (fun a => match a with
    | ⟨0, _⟩ => rfl
    | ⟨1, _⟩ => rfl)

/-- The stored value at row p and class q. -/
theorem stored_apply (x0 x1 : Vec Ideal S5000x96 .f32) (x2 : Vec Ideal S5000x1 .f32) (x3 x4 : Vec Ideal S128x96 .bf16)
    (x5 x6 : Vec Ideal S40x128 .bf16) (p : Fin 5000) (q : Fin 40) :
    k0_pay1 (F := Ideal) x0 x1 x3 x4 x2 x5 x6 (ix2 p q)
      = Cert.Hand.splitForm (fun j => x0 (ix2 p j)) (fun j => x1 (ix2 p j)) (x2 (ix2 p 0)) (fun k j => x3 (ix2 k j))
          (fun k j => x4 (ix2 k j)) (fun k => x5 (ix2 q k)) (fun k => x6 (ix2 q k)) := by
  unfold k0_pay1 Cert.Hand.splitForm
  refine (addf_apply _ _ (ix2 p q)).trans ?_
  refine congrArg₂ (· + ·) ((projected_apply _ x5 _ _ p q).trans ?_) ((projected_apply _ x6 _ _ p q).trans ?_)
  · refine Finset.sum_congr rfl fun k _ => ?_
    refine congrArg (· * x5 (ix2 q k)) ?_
    exact hidden_apply (truncf .bf16 x0 bitsLt_bf16_f32) x3 _ _ p k
  · refine Finset.sum_congr rfl fun k _ => ?_
    refine congrArg (· * x6 (ix2 q k)) ?_
    refine (mulf_apply _ _ (ix2 p k)).trans ?_
    refine congrArg₂ (· * ·) ?_ ?_
    · refine (hidden_apply (truncf .bf16 (shapeCast S5000x96 x1 shapeCasts_S5000x96_S5000x96) bitsLt_bf16_f32) x4 _ _ p k).trans ?_
      refine Finset.sum_congr rfl fun j _ => ?_
      refine congrArg (· * x4 (ix2 k j)) ?_
      exact congrFun (shapeCast_self x1 shapeCasts_S5000x96_S5000x96) (ix2 p j)
    · refine (column_apply _ _ p k).trans ?_
      exact congrFun (shapeCast_self x2 shapeCasts_S5000x1_S5000x1) (ix2 p 0)

end Cert.KernelIdeal.Entry

end
-- ==== Proof.KernelArray.lean ====
/-
  From blocks to the array: the kernel's result array after the run as ONE function of the arrays the region finds.

  The grid has ten points; point t stages rows 5000 t … 5000 t + 4999 of the features, of the propagated features and of the
  normalisation column, the four weight matrices whole, and writes back rows 5000 t … 5000 t + 4999 of the result. So the
  entry (r, q) of the result is written by the point r / 5000 alone, and it is the stored value of the body at row r mod 5000
  of that point's blocks — which are rows of the arrays, so the entry is the same expression of the ARRAYS at row r. The ten
  blocks cover the result array, so after the run it is that function everywhere.
-/
import proofs.«139098_j30683246363241_2_alg».proof.Proof.Gen.KernelIdeal.Value
import proofs.«139098_j30683246363241_2_alg».proof.Proof.KernelEntry
import Idealize.ShloMosaic.Lib.Pipeline.Value
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, by name -/

/-- Window 0's array as the region finds it. -/
def feat (c : Dev nD) : S50000x96.Idx → EReal := V m c (Pipeline.arrRef spec0 0)
/-- Window 1's array as the region finds it. -/
def prop (c : Dev nD) : S50000x96.Idx → EReal := V m c (Pipeline.arrRef spec0 1)
/-- Window 2's array as the region finds it. -/
def normCol (c : Dev nD) : S50000x1.Idx → EReal := V m c (Pipeline.arrRef spec0 2)
/-- Window 3's array as the region finds it. -/
def wLin (c : Dev nD) : S128x96.Idx → EReal := V m c (Pipeline.arrRef spec0 3)
/-- Window 4's array as the region finds it. -/
def wSgc (c : Dev nD) : S128x96.Idx → EReal := V m c (Pipeline.arrRef spec0 4)
/-- Window 5's array as the region finds it. -/
def wProjPlain (c : Dev nD) : S40x128.Idx → EReal := V m c (Pipeline.arrRef spec0 5)
/-- Window 6's array as the region finds it. -/
def wProjProp (c : Dev nD) : S40x128.Idx → EReal := V m c (Pipeline.arrRef spec0 6)

/-- Entry (r, q) of the result: the body's expression, of the arrays at row r. -/
def entry (c : Dev nD) (r : Fin 50000) (q : Fin 40) : EReal :=
  Cert.Hand.splitForm (fun j => feat m c (ix2 r j)) (fun j => prop m c (ix2 r j)) (normCol m c (ix2 r 0))
    (fun k j => wLin m c (ix2 k j)) (fun k j => wSgc m c (ix2 k j)) (fun k => wProjPlain m c (ix2 q k))
    (fun k => wProjProp m c (ix2 q k))

/-- The result array as one function of the arrays. -/
def whole (c : Dev nD) : S50000x40.Idx → EReal := fun i => entry m c ⟨(i 0).val, (i 0).isLt⟩ ⟨(i 1).val, (i 1).isLt⟩

/-! ## Which rows a point's blocks are -/

/-- The printed index maps over the ten points: the three row-blocked inputs and the output sit at block row t, the
    four weight matrices at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Entry (a, b) of window 0's block at point t, read off ANY contents of its array, is the entry 5000 t + a rows down. -/
theorem feat_read (t : Fin cfg0.N) (A : S50000x96.Idx → EReal) (a : Fin 5000) (b : Fin 96) (k : S50000x96.Idx) (hk0 : (k 0).val = 5000 * t.val + a.val)
    (hk1 : (k 1).val = b.val) :
    (((cfg0.win 0).blk t).view.read (Elt Ideal) A : Vec Ideal S5000x96 .f32) (ix2 a b) = A k := by
  have hi := idx_facts t
  show A (((cfg0.win 0).blk t).view.emb (ix2 a b)) = A k
  refine congrArg A (funext fun d => Fin.ext ?_)
  match d with
  | ⟨0, _⟩ => show win0_0.index t (0 : Fin 2) * 5000 + 1 * a.val = (k 0).val; rw [hi.1, hk0]; omega
  | ⟨1, _⟩ => show win0_0.index t (1 : Fin 2) * 96 + 1 * b.val = (k 1).val; rw [hi.2.1, hk1]; omega

theorem feat_block (c : Dev nD) (t : Fin cfg0.N) (a : Fin 5000) (b : Fin 96) (k : S50000x96.Idx) (hk0 : (k 0).val = 5000 * t.val + a.val)
    (hk1 : (k 1).val = b.val) : (iblk m c 0 t : Vec Ideal S5000x96 .f32) (ix2 a b) = feat m c k := by
  unfold iblk feat
  exact feat_read t _ a b k hk0 hk1

/-- Entry (a, b) of window 1's block at point t, read off ANY contents of its array, is the entry 5000 t + a rows down. -/
theorem prop_read (t : Fin cfg0.N) (A : S50000x96.Idx → EReal) (a : Fin 5000) (b : Fin 96) (k : S50000x96.Idx) (hk0 : (k 0).val = 5000 * t.val + a.val)
    (hk1 : (k 1).val = b.val) :
    (((cfg0.win 1).blk t).view.read (Elt Ideal) A : Vec Ideal S5000x96 .f32) (ix2 a b) = A k := by
  have hi := idx_facts t
  show A (((cfg0.win 1).blk t).view.emb (ix2 a b)) = A k
  refine congrArg A (funext fun d => Fin.ext ?_)
  match d with
  | ⟨0, _⟩ => show win0_1.index t (0 : Fin 2) * 5000 + 1 * a.val = (k 0).val; rw [hi.2.2.1, hk0]; omega
  | ⟨1, _⟩ => show win0_1.index t (1 : Fin 2) * 96 + 1 * b.val = (k 1).val; rw [hi.2.2.2.1, hk1]; omega

theorem prop_block (c : Dev nD) (t : Fin cfg0.N) (a : Fin 5000) (b : Fin 96) (k : S50000x96.Idx) (hk0 : (k 0).val = 5000 * t.val + a.val)
    (hk1 : (k 1).val = b.val) : (iblk m c 1 t : Vec Ideal S5000x96 .f32) (ix2 a b) = prop m c k := by
  unfold iblk prop
  exact prop_read t _ a b k hk0 hk1

/-- Entry (a, b) of window 2's block at point t, read off ANY contents of its array, is the entry 5000 t + a rows down. -/
theorem normCol_read (t : Fin cfg0.N) (A : S50000x1.Idx → EReal) (a : Fin 5000) (b : Fin 1) (k : S50000x1.Idx) (hk0 : (k 0).val = 5000 * t.val + a.val)
    (hk1 : (k 1).val = b.val) :
    (((cfg0.win 2).blk t).view.read (Elt Ideal) A : Vec Ideal S5000x1 .f32) (ix2 a b) = A k := by
  have hi := idx_facts t
  show A (((cfg0.win 2).blk t).view.emb (ix2 a b)) = A k
  refine congrArg A (funext fun d => Fin.ext ?_)
  match d with
  | ⟨0, _⟩ => show win0_2.index t (0 : Fin 2) * 5000 + 1 * a.val = (k 0).val; rw [hi.2.2.2.2.1, hk0]; omega
  | ⟨1, _⟩ => show win0_2.index t (1 : Fin 2) * 1 + 1 * b.val = (k 1).val; rw [hi.2.2.2.2.2.1, hk1]; omega

theorem normCol_block (c : Dev nD) (t : Fin cfg0.N) (a : Fin 5000) (b : Fin 1) (k : S50000x1.Idx) (hk0 : (k 0).val = 5000 * t.val + a.val)
    (hk1 : (k 1).val = b.val) : (iblk m c 2 t : Vec Ideal S5000x1 .f32) (ix2 a b) = normCol m c k := by
  unfold iblk normCol
  exact normCol_read t _ a b k hk0 hk1

/-- Entry (a, b) of window 3's block at point t, read off ANY contents of its array, is the entry (a, b): the block is the whole array. -/
theorem wLin_read (t : Fin cfg0.N) (A : S128x96.Idx → EReal) (a : Fin 128) (b : Fin 96) (k : S128x96.Idx) (hk0 : (k 0).val = a.val)
    (hk1 : (k 1).val = b.val) :
    (((cfg0.win 3).blk t).view.read (Elt Ideal) A : Vec Ideal S128x96 .bf16) (ix2 a b) = A k := by
  have hi := idx_facts t
  show A (((cfg0.win 3).blk t).view.emb (ix2 a b)) = A k
  refine congrArg A (funext fun d => Fin.ext ?_)
  match d with
  | ⟨0, _⟩ => show win0_3.index t (0 : Fin 2) * 128 + 1 * a.val = (k 0).val; rw [hi.2.2.2.2.2.2.1, hk0]; omega
  | ⟨1, _⟩ => show win0_3.index t (1 : Fin 2) * 96 + 1 * b.val = (k 1).val; rw [hi.2.2.2.2.2.2.2.1, hk1]; omega

theorem wLin_block (c : Dev nD) (t : Fin cfg0.N) (a : Fin 128) (b : Fin 96) (k : S128x96.Idx) (hk0 : (k 0).val = a.val)
    (hk1 : (k 1).val = b.val) : (iblk m c 3 t : Vec Ideal S128x96 .bf16) (ix2 a b) = wLin m c k := by
  unfold iblk wLin
  exact wLin_read t _ a b k hk0 hk1

/-- Entry (a, b) of window 4's block at point t, read off ANY contents of its array, is the entry (a, b): the block is the whole array. -/
theorem wSgc_read (t : Fin cfg0.N) (A : S128x96.Idx → EReal) (a : Fin 128) (b : Fin 96) (k : S128x96.Idx) (hk0 : (k 0).val = a.val)
    (hk1 : (k 1).val = b.val) :
    (((cfg0.win 4).blk t).view.read (Elt Ideal) A : Vec Ideal S128x96 .bf16) (ix2 a b) = A k := by
  have hi := idx_facts t
  show A (((cfg0.win 4).blk t).view.emb (ix2 a b)) = A k
  refine congrArg A (funext fun d => Fin.ext ?_)
  match d with
  | ⟨0, _⟩ => show win0_4.index t (0 : Fin 2) * 128 + 1 * a.val = (k 0).val; rw [hi.2.2.2.2.2.2.2.2.1, hk0]; omega
  | ⟨1, _⟩ => show win0_4.index t (1 : Fin 2) * 96 + 1 * b.val = (k 1).val; rw [hi.2.2.2.2.2.2.2.2.2.1, hk1]; omega

theorem wSgc_block (c : Dev nD) (t : Fin cfg0.N) (a : Fin 128) (b : Fin 96) (k : S128x96.Idx) (hk0 : (k 0).val = a.val)
    (hk1 : (k 1).val = b.val) : (iblk m c 4 t : Vec Ideal S128x96 .bf16) (ix2 a b) = wSgc m c k := by
  unfold iblk wSgc
  exact wSgc_read t _ a b k hk0 hk1

/-- Entry (a, b) of window 5's block at point t, read off ANY contents of its array, is the entry (a, b): the block is the whole array. -/
theorem wProjPlain_read (t : Fin cfg0.N) (A : S40x128.Idx → EReal) (a : Fin 40) (b : Fin 128) (k : S40x128.Idx) (hk0 : (k 0).val = a.val)
    (hk1 : (k 1).val = b.val) :
    (((cfg0.win 5).blk t).view.read (Elt Ideal) A : Vec Ideal S40x128 .bf16) (ix2 a b) = A k := by
  have hi := idx_facts t
  show A (((cfg0.win 5).blk t).view.emb (ix2 a b)) = A k
  refine congrArg A (funext fun d => Fin.ext ?_)
  match d with
  | ⟨0, _⟩ => show win0_5.index t (0 : Fin 2) * 40 + 1 * a.val = (k 0).val; rw [hi.2.2.2.2.2.2.2.2.2.2.1, hk0]; omega
  | ⟨1, _⟩ => show win0_5.index t (1 : Fin 2) * 128 + 1 * b.val = (k 1).val; rw [hi.2.2.2.2.2.2.2.2.2.2.2.1, hk1]; omega

theorem wProjPlain_block (c : Dev nD) (t : Fin cfg0.N) (a : Fin 40) (b : Fin 128) (k : S40x128.Idx) (hk0 : (k 0).val = a.val)
    (hk1 : (k 1).val = b.val) : (iblk m c 5 t : Vec Ideal S40x128 .bf16) (ix2 a b) = wProjPlain m c k := by
  unfold iblk wProjPlain
  exact wProjPlain_read t _ a b k hk0 hk1

/-- Entry (a, b) of window 6's block at point t, read off ANY contents of its array, is the entry (a, b): the block is the whole array. -/
theorem wProjProp_read (t : Fin cfg0.N) (A : S40x128.Idx → EReal) (a : Fin 40) (b : Fin 128) (k : S40x128.Idx) (hk0 : (k 0).val = a.val)
    (hk1 : (k 1).val = b.val) :
    (((cfg0.win 6).blk t).view.read (Elt Ideal) A : Vec Ideal S40x128 .bf16) (ix2 a b) = A k := by
  have hi := idx_facts t
  show A (((cfg0.win 6).blk t).view.emb (ix2 a b)) = A k
  refine congrArg A (funext fun d => Fin.ext ?_)
  match d with
  | ⟨0, _⟩ => show win0_6.index t (0 : Fin 2) * 40 + 1 * a.val = (k 0).val; rw [hi.2.2.2.2.2.2.2.2.2.2.2.2.1, hk0]; omega
  | ⟨1, _⟩ => show win0_6.index t (1 : Fin 2) * 128 + 1 * b.val = (k 1).val; rw [hi.2.2.2.2.2.2.2.2.2.2.2.2.2.1, hk1]; omega

theorem wProjProp_block (c : Dev nD) (t : Fin cfg0.N) (a : Fin 40) (b : Fin 128) (k : S40x128.Idx) (hk0 : (k 0).val = a.val)
    (hk1 : (k 1).val = b.val) : (iblk m c 6 t : Vec Ideal S40x128 .bf16) (ix2 a b) = wProjProp m c k := by
  unfold iblk wProjProp
  exact wProjProp_read t _ a b k hk0 hk1

/-! ## What a point writes back, the cover, the array -/

theorem zero_offsets : (![0, 0] : Fin 2 → Nat) = fun _ => 0 := funext fun a => by fin_cases a <;> rfl

/-- `whole` at an index whose coordinates are r and q. -/
theorem whole_apply (c : Dev nD) (i : S50000x40.Idx) (r : Fin 50000) (q : Fin 40) (h0 : (i 0).val = r.val)
    (h1 : (i 1).val = q.val) : whole m c i = entry m c r q := by
  show entry m c ⟨(i 0).val, (i 0).isLt⟩ ⟨(i 1).val, (i 1).isLt⟩ = entry m c r q
  rw [show (⟨(i 0).val, (i 0).isLt⟩ : Fin 50000) = r from Fin.ext h0, show (⟨(i 1).val, (i 1).isLt⟩ : Fin 40) = q from Fin.ext h1]

/-- Point t writes back block t of `whole`. -/
theorem flushed_eq (c : Dev nD) (t : Fin cfg0.N) :
    (dats m 0 c).flushed 7 t = ((cfg0.win 7).blk t).view.read (Elt Ideal) (whole m c) := by
  rw [Cert.KernelIdeal.Value.flushed7]
  unfold out0_7
  rw [View.canon_unit_zero zero_offsets]
  simp only [View.ld_unit_zero (S := S5000x96) zero_offsets, View.ld_unit_zero (S := S128x96) zero_offsets,
    View.ld_unit_zero (S := S5000x1) zero_offsets, View.ld_unit_zero (S := S40x128) zero_offsets]
  have hi := idx_facts t
  have ht : t.val < 10 := by have h := t.isLt; have hN : cfg0.N = 10 := N_0; omega
  funext y
  obtain ⟨p, q, rfl⟩ : ∃ (p : Fin 5000) (q : Fin 40), y = ix2 p q := ⟨y 0, y 1, eq_ix2 y⟩
  show k0_pay1 (F := Ideal) (iblk m c 0 t) (iblk m c 1 t) (iblk m c 3 t) (iblk m c 4 t) (iblk m c 2 t) (iblk m c 5 t) (iblk m c 6 t) (ix2 p q)
    = whole m c (((cfg0.win 7).blk t).view.emb (ix2 p q))
  refine (Cert.KernelIdeal.Entry.stored_apply (iblk m c 0 t) (iblk m c 1 t) (iblk m c 2 t) (iblk m c 3 t) (iblk m c 4 t)
    (iblk m c 5 t) (iblk m c 6 t) p q).trans ?_
  have hp : p.val < 5000 := p.isLt
  have e0 : ((((cfg0.win 7).blk t).view.emb (ix2 p q)) 0).val = 5000 * t.val + p.val := by
    show win0_7.index t (0 : Fin 2) * 5000 + 1 * p.val = _
    rw [hi.2.2.2.2.2.2.2.2.2.2.2.2.2.2.1]; omega
  have e1 : ((((cfg0.win 7).blk t).view.emb (ix2 p q)) 1).val = q.val := by
    show win0_7.index t (1 : Fin 2) * 40 + 1 * q.val = _
    rw [hi.2.2.2.2.2.2.2.2.2.2.2.2.2.2.2]; omega
  refine Eq.trans ?_ (whole_apply m c _ (⟨5000 * t.val + p.val, by omega⟩ : Fin 50000) q e0 e1).symm
  unfold entry
  exact Cert.Hand.splitForm_congr (funext fun j => feat_block m c t p j _ rfl rfl) (funext fun j => prop_block m c t p j _ rfl rfl)
    (normCol_block m c t p 0 _ rfl rfl) (funext fun k => funext fun j => wLin_block m c t k j _ rfl rfl)
    (funext fun k => funext fun j => wSgc_block m c t k j _ rfl rfl) (funext fun k => wProjPlain_block m c t q k _ rfl rfl)
    (funext fun k => wProjProp_block m c t q k _ rfl rfl)

/-- An index is in point t's block of the result when each coordinate is in the block's range. -/
theorem mem_block (t : Fin cfg0.N) (i : S50000x40.Idx) :
    i ∈ ((cfg0.win 7).blk t).view.set ↔ ∀ a : Fin 2, win0_7.index t a * S5000x40.size a ≤ (i a).val
      ∧ (i a).val < win0_7.index t a * S5000x40.size a + S5000x40.size a := by
  show i ∈ ((View.whole main_v41).slice (win0_7.rect t)).set ↔ _
  rw [View.set_slice_whole, Rect.mem_set_unit]
  exact Iff.rfl

/-- Every index of the result is in the block of the point its row falls in. -/
theorem cover (i : S50000x40.Idx) : ∃ t : Fin cfg0.N, (cfg0.win 7).flush t = true ∧ i ∈ ((cfg0.win 7).blk t).view.set := by
  have h0 : (i 0).val < 50000 := (i 0).isLt
  have h1 : (i 1).val < 40 := (i 1).isLt
  have hN : cfg0.N = 10 := N_0
  obtain ⟨t, ht⟩ : ∃ t : Fin cfg0.N, t.val = (i 0).val / 5000 := ⟨⟨(i 0).val / 5000, by rw [hN]; omega⟩, rfl⟩
  have hi := idx_facts t
  refine ⟨t, flush0_7 t, ?_⟩
  rw [mem_block]
  intro a
  match a with
  | ⟨0, _⟩ =>
    show win0_7.index t (0 : Fin 2) * 5000 ≤ (i 0).val ∧ (i 0).val < win0_7.index t (0 : Fin 2) * 5000 + 5000
    rw [hi.2.2.2.2.2.2.2.2.2.2.2.2.2.2.1, ht]; omega
  | ⟨1, _⟩ =>
    show win0_7.index t (1 : Fin 2) * 40 ≤ (i 1).val ∧ (i 1).val < win0_7.index t (1 : Fin 2) * 40 + 40
    rw [hi.2.2.2.2.2.2.2.2.2.2.2.2.2.2.2]; omega

/-- The result array after the run is `whole`. -/
theorem final (c : Dev nD) : (dats m 0 c).arrAt 7 cfg0.N = whole m c :=
  (dats m 0 c).arrAt_eq_of_cover 7 (whole m c) (fun t _ => flushed_eq m c t) cover

/-- The kernel's run, read: the result array at `whole`, the arguments unchanged. -/
theorem run : θ_run defs (onTc (τ := τ) (main (F := Ideal))) ⟨m, fun _ => 0, ρ⟩ fun r => ∀ c : Dev nD,
      r.2.mem ((c : Thread nD τ).loc main_v41) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Whole

end
-- ==== Proof.Entering.lean ====
/-
  What the kernel's windows find in their arrays when the region is entered.

  Before its one region the kernel's program computes, on the host, the degree of every node (a one added at the
  destination of every edge), the normalisation n = (the degree, or 1 where it is not positive) to the power -1/2, and the
  propagated features: the features scaled by n, carried along every edge from its source to its destination and added up
  there, scaled by n * n, and carried along the edges once more. It also rounds the weight matrices to bf16 (the identity
  on the extended reals) and cuts the projection into its two halves of 128 columns. These are named here as plain terms of
  the operations, and each window's array is shown to hold its term.
-/
import proofs.«139098_j30683246363241_2_alg».proof.Proof.Gen.KernelIdeal.Frame
import Idealize.ShloMosaic.Lib.StableHlo.Run
import Idealize.ShloMosaic.PureOps.Ideal

noncomputable section

namespace Cert.KernelIdeal.Entering

open Cert.KernelIdeal Cert.KernelIdeal.Gen Idealize.ShloMosaic Idealize.ShloMosaic.TcCoe Idealize.SL.Sem Idealize.ShloMosaic.StableHlo

/-- The in-degree of every node: a one added at the destination of every edge. -/
def degree (dst : S800000.Idx → BitVec 32) : S50000.Idx → EReal :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The normalisation of every node: the degree, or one where it is not positive, to the power -1/2. -/
def norm (dst : S800000.Idx → BitVec 32) : S50000.Idx → EReal :=
  Host.powf (F := Ideal)
    (select (cmpf (F := Ideal) .ogt (degree dst) (broadcastInDim S50000 ![] bcast_S_S50000 (constant (F := Ideal) S_ .f32 0x00000000#32)))
      (degree dst) (broadcastInDim S50000 ![] bcast_S_S50000 (id (constant (F := Ideal) S_ .f32 0x3F800000#32))))
    (broadcastInDim S50000 ![] bcast_S_S50000 (constant (F := Ideal) S_ .f32 0xBF000000#32))

/-- The normalisation as a column. -/
def normColumn (dst : S800000.Idx → BitVec 32) : S50000x1.Idx → EReal :=
  broadcastInDim S50000x1 ![0] bcast_S50000_S50000x1_0 (norm dst)

/-- The source node of every edge, a negative index wrapped once. -/
def sources (src : S800000.Idx → BitVec 32) : S800000x1.Idx → BitVec 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One propagation step: every edge carries its source's row to its destination, where the rows are added up. -/
def step (h : S50000x96.Idx → EReal) (src dst : S800000.Idx → BitVec 32) : S50000x96.Idx → EReal :=
  Host.scatterAdd (F := Ideal) (φ := .f32) scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (Host.gather gather_S50000x96_S800000x1_S800000x96_1_0_n_n_0_1_196 h (sources src))

/-- The propagated features the kernel is given: scale by the norm, step, scale by the norm's square, step. -/
def propagated (x : S50000x96.Idx → EReal) (src dst : S800000.Idx → BitVec 32) : S50000x96.Idx → EReal :=
  step (mulf (F := Ideal) (φ := .f32)
      (step (mulf (F := Ideal) (φ := .f32) x (broadcastInDim S50000x96 ![0, 1] bcast_S50000x1_S50000x96_0_1 (normColumn dst))) src dst)
      (broadcastInDim S50000x96 ![0, 1] bcast_S50000x1_S50000x96_0_1 (mulf (F := Ideal) (φ := .f32) (normColumn dst) (normColumn dst))))
    src dst

/-- A weight matrix rounded to bf16. -/
def rounded (w : S128x96.Idx → EReal) : S128x96.Idx → EReal := truncf (F := Ideal) (φ := .f32) .bf16 w bitsLt_bf16_f32

/-- The first 128 columns of the projection, rounded to bf16. -/
def projPlain (w : S40x256.Idx → EReal) : S40x128.Idx → EReal :=
  truncf (F := Ideal) (φ := .f32) .bf16 (extractStridedSlice S40x128 ![0, 0] w slices_S40x256_S40x128_0_0) bitsLt_bf16_f32

/-- The last 128 columns of the projection, rounded to bf16. -/
def projProp (w : S40x256.Idx → EReal) : S40x128.Idx → EReal :=
  truncf (F := Ideal) (φ := .f32) .bf16 (extractStridedSlice S40x128 ![0, 128] w slices_S40x256_S40x128_0_128) bitsLt_bf16_f32

/-- The three operations of the function the program calls for `where`, with the functions they apply written plainly:
    reading and writing a buffer at its own type changes nothing. -/
theorem call_ops : (hostOps0_1 : List (HloOp τ sig (Elt Ideal)))
    = [ StableHlo.unary main_cst_2 main_call0_v0 (id : (⟨S_, .f32⟩ : BufTy).Contents (Elt Ideal) → (⟨S_, .f32⟩ : BufTy).Contents (Elt Ideal)),
        StableHlo.unary main_call0_v0 main_call0_v1 (broadcastInDim S50000 ![] bcast_S_S50000 : (⟨S_, .f32⟩ : BufTy).Contents (Elt Ideal) → (⟨S50000, .f32⟩ : BufTy).Contents (Elt Ideal)),
        StableHlo.ternary main_v5 main_v3 main_call0_v1 main_v6 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

variable (m : (ℓ : Loc nD τ sig) → Buf (Elt Ideal) ℓ) (c : Dev nD)

set_option maxRecDepth 65536 in
set_option maxHeartbeats 4000000 in
/-- Window 2's array holds the normalisation column. -/
theorem normColumn_found : (V m c main_v9 : S50000x1.Idx → EReal) = normColumn (m ((c : Thread nD τ).loc main_arg2)) := by
  dsimp only [V]
  rw [call_ops]
  simp only [hostOps0, hostOps0_2, List.flatten_cons, List.flatten_nil, List.append_nil, List.cons_append, List.nil_append]
  after_results_simp
  rfl

set_option maxRecDepth 65536 in
set_option maxHeartbeats 4000000 in
/-- Window 1's array holds the propagated features. -/
theorem propagated_found : (V m c main_v34 : S50000x96.Idx → EReal)
    = propagated (m ((c : Thread nD τ).loc main_arg0)) (m ((c : Thread nD τ).loc main_arg1)) (m ((c : Thread nD τ).loc main_arg2)) := by
  dsimp only [V]
  rw [call_ops]
  simp only [hostOps0, hostOps0_2, List.flatten_cons, List.flatten_nil, List.append_nil, List.cons_append, List.nil_append]
  after_results_simp
  rfl

set_option maxRecDepth 65536 in
set_option maxHeartbeats 4000000 in
/-- Window 3's array holds W_lin, rounded. -/
theorem wLin_found : (V m c main_v35 : S128x96.Idx → EReal) = rounded (m ((c : Thread nD τ).loc main_arg4)) := by
  dsimp only [V]
  rw [call_ops]
  simp only [hostOps0, hostOps0_2, List.flatten_cons, List.flatten_nil, List.append_nil, List.cons_append, List.nil_append]
  after_results_simp
  rfl

set_option maxRecDepth 65536 in
set_option maxHeartbeats 4000000 in
/-- Window 4's array holds W_sgc, rounded. -/
theorem wSgc_found : (V m c main_v36 : S128x96.Idx → EReal) = rounded (m ((c : Thread nD τ).loc main_arg3)) := by
  dsimp only [V]
  rw [call_ops]
  simp only [hostOps0, hostOps0_2, List.flatten_cons, List.flatten_nil, List.append_nil, List.cons_append, List.nil_append]
  after_results_simp
  rfl

set_option maxRecDepth 65536 in
set_option maxHeartbeats 4000000 in
/-- Window 5's array holds the first half of the projection. -/
theorem projPlain_found : (V m c main_v38 : S40x128.Idx → EReal) = projPlain (m ((c : Thread nD τ).loc main_arg5)) := by
  dsimp only [V]
  rw [call_ops]
  simp only [hostOps0, hostOps0_2, List.flatten_cons, List.flatten_nil, List.append_nil, List.cons_append, List.nil_append]
  after_results_simp
  rfl

set_option maxRecDepth 65536 in
set_option maxHeartbeats 4000000 in
/-- Window 6's array holds the second half of the projection. -/
theorem projProp_found : (V m c main_v40 : S40x128.Idx → EReal) = projProp (m ((c : Thread nD τ).loc main_arg5)) := by
  dsimp only [V]
  rw [call_ops]
  simp only [hostOps0, hostOps0_2, List.flatten_cons, List.flatten_nil, List.append_nil, List.cons_append, List.nil_append]
  after_results_simp
  rfl

end Cert.KernelIdeal.Entering

end
-- ==== Proof.RefEntry.lean ====
/-
  One entry of the reference's result, read off its operations.

  The reference's last operation contracts the concatenated hidden vector of node r, 256 long, against row c of the
  projection. The first 128 hidden units are the plain branch, features of r against a row of W_lin; the last 128 are the
  propagated branch, where each propagated feature of r is scaled by the node's normalisation and then contracted against
  a row of W_sgc. The propagated features and the normalisation are kept as the operations' own terms: nothing here looks
  inside the gather, the scatter-add or the power.
-/
import proofs.«139098_j30683246363241_2_alg».proof.Proof.RefRead
import proofs.«139098_j30683246363241_2_alg».proof.Proof.NormLaw
import Idealize.ShloMosaic.Lib.Pipeline.Value
import Idealize.ShloMosaic.Lib.ValueIdx

noncomputable section

namespace Cert.ReferenceIdeal.Entry

open Cert.ReferenceIdeal Cert.ReferenceIdeal.Gen Cert.ReferenceIdeal.ReadP Idealize.ShloMosaic Idealize.ShloMosaic.ValueIdx

variable (x0 : (⟨S50000x96, .f32⟩ : BufTy).Contents (Elt Ideal)) (x1 x2 : (⟨S800000, .i32⟩ : BufTy).Contents (Elt Ideal))
  (x3 x4 : (⟨S128x96, .f32⟩ : BufTy).Contents (Elt Ideal)) (x5 : (⟨S40x256, .f32⟩ : BufTy).Contents (Elt Ideal))

/-- The normalisation of node r, as the reference computes it. -/
abbrev norm (r : Fin 50000) : EReal := val_main_v10 (F := Ideal) x2 (ix1 r)

/-- Feature j of node r after the two propagation steps, before the last scaling. -/
abbrev prop (r : Fin 50000) (j : Fin 96) : EReal := val_main_v39 (F := Ideal) x0 x1 x2 (ix2 r j)

/-- A hidden unit of the plain branch. -/
theorem plain_apply (r : Fin 50000) (k : Fin 128) :
    val_main_v1 (F := Ideal) x0 x4 (ix2 r k) = ∑ j : Fin 96, x0 (ix2 r j) * x4 (ix2 k j) := by
  rw [val_main_v1_apply]
  refine Finset.sum_congr rfl fun j _ => ?_
  rw [val_main_v0_apply]
  have e1 : lidx_main_v1 (ix2 r k) j = ix2 r j := funext fun a => Fin.ext (by
    match a with
    | ⟨0, _⟩ => rfl
    | ⟨1, _⟩ => rfl)
  have e2 : idx_main_v0 (ridx_main_v1 (ix2 r k) j) = ix2 k j := funext fun a => Fin.ext (by
    match a with
    | ⟨0, _⟩ => rfl
    | ⟨1, _⟩ => rfl)
  rw [e1, e2]

/-- A hidden unit of the propagated branch: each propagated feature scaled by the node's normalisation, then contracted. -/
theorem propagated_apply (r : Fin 50000) (k : Fin 128) :
    val_main_v44 (F := Ideal) x0 x1 x2 x3 (ix2 r k) = ∑ j : Fin 96, (prop x0 x1 x2 r j * norm x2 r) * x3 (ix2 k j) := by
  rw [val_main_v44_apply]
  refine Finset.sum_congr rfl fun j _ => ?_
  rw [val_main_v43_apply, val_main_v42_apply, val_main_v41_apply, val_main_v40_apply]
  have e1 : lidx_main_v44 (ix2 r k) j = ix2 r j := funext fun a => Fin.ext (by
    match a with
    | ⟨0, _⟩ => rfl
    | ⟨1, _⟩ => rfl)
  have e2 : idx_main_v43 (ridx_main_v44 (ix2 r k) j) = ix2 k j := funext fun a => Fin.ext (by
    match a with
    | ⟨0, _⟩ => rfl
    | ⟨1, _⟩ => rfl)
  have e3 : idx_main_v40 (idx_main_v41 (ix2 r j)) = ix1 r := funext fun a => Fin.ext (by
    match a with
    | ⟨0, _⟩ => rfl)
  rw [e1, e2, e3]
  rfl

/-- The concatenated hidden vector of node r at unit k. -/
theorem cat_apply (r : Fin 50000) (k : Fin 256) :
    val_main_v45 (F := Ideal) x0 x1 x2 x3 x4 (ix2 r k)
      = Cert.Hand.catForm (fun j => x0 (ix2 r j)) (prop x0 x1 x2 r) (norm x2 r) (fun k j => x4 (ix2 k j))
          (fun k j => x3 (ix2 k j)) k := by
  unfold val_main_v45 Cert.Hand.catForm
  by_cases h : k.val < 128
  · rw [dif_pos h]
    refine (concatenate_pair_apply_left (s₁ := S50000x128) (s₂ := S50000x128) (1 : Fin S50000x256.rank) (val_main_v1 (F := Ideal) x0 x4)
      (val_main_v44 (F := Ideal) x0 x1 x2 x3) concatenates_S50000x128_S50000x128_S50000x256_d1 (ix2 r k) rfl
      (ix2 r (⟨k.val, h⟩ : Fin 128) : S50000x128.Idx) (fun b => ?_)).trans
      (plain_apply x0 x4 r ⟨k.val, h⟩)
    match b with
    | ⟨0, _⟩ => rfl
    | ⟨1, _⟩ => rfl
  · rw [dif_neg h]
    have hk : k.val - 128 < 128 := by have := k.isLt; omega
    refine (concatenate_pair_apply_right (s₁ := S50000x128) (s₂ := S50000x128) (1 : Fin S50000x256.rank) (val_main_v1 (F := Ideal) x0 x4)
      (val_main_v44 (F := Ideal) x0 x1 x2 x3) concatenates_S50000x128_S50000x128_S50000x256_d1 (ix2 r k) rfl rfl
      (ix2 r (⟨k.val - 128, hk⟩ : Fin 128) : S50000x128.Idx) (fun b hb => ?_) ?_).trans (propagated_apply x0 x1 x2 x3 r ⟨k.val - 128, hk⟩)
    · match b with
      | ⟨0, _⟩ => rfl
      | ⟨1, _⟩ => exact absurd rfl hb
    · show k.val - 128 + 128 = k.val
      omega

/-- One entry of the reference's result. -/
theorem result_apply (r : Fin 50000) (c : Fin 40) :
    val_main_v47 (F := Ideal) x0 x1 x2 x3 x4 x5 (ix2 r c)
      = Cert.Hand.joinedForm (fun j => x0 (ix2 r j)) (prop x0 x1 x2 r) (norm x2 r) (fun k j => x4 (ix2 k j))
          (fun k j => x3 (ix2 k j)) (fun k => x5 (ix2 c k)) := by
  rw [val_main_v47_apply]
  unfold Cert.Hand.joinedForm
  refine Finset.sum_congr rfl fun k _ => ?_
  rw [val_main_v46_apply]
  have e1 : lidx_main_v47 (ix2 r c) k = ix2 r k := funext fun a => Fin.ext (by
    match a with
    | ⟨0, _⟩ => rfl
    | ⟨1, _⟩ => rfl)
  have e2 : idx_main_v46 (ridx_main_v47 (ix2 r c) k) = ix2 c k := funext fun a => Fin.ext (by
    match a with
    | ⟨0, _⟩ => rfl
    | ⟨1, _⟩ => rfl)
  rw [e1, e2, cat_apply]

/-- The normalisation of a node is a non-negative real, whatever the edges are: the degree's own value is not looked at. -/
theorem norm_nonneg_real (r : Fin 50000) : ∃ x : ℝ, 0 ≤ x ∧ norm x2 r = (x : EReal) := by
  obtain ⟨x, hx, e⟩ := Cert.Hand.norm_is_nonneg_real (val_main_v5 (F := Ideal) x2 (ix1 r)) (y := -(1 / 2)) (by norm_num)
  refine ⟨x, hx, ?_⟩
  show val_main_v10 (F := Ideal) x2 (ix1 r) = _
  rw [val_main_v10_apply, val_main_v8_apply, val_main_v7_apply, val_main_v9_apply, val_main_cst_3_apply, val_main_v6_apply,
    val_main_cst_1_apply, val_main_call0_v1_apply, val_main_call0_v0_apply, val_main_cst_2_apply]
  show Ideal.pow (Scalar.select (Ideal.cmp .ogt (val_main_v5 (F := Ideal) x2 (ix1 r)) (Ideal.ofBits .f32 0x00000000#32))
      (val_main_v5 (F := Ideal) x2 (ix1 r)) (Ideal.ofBits .f32 0x3F800000#32)) (Ideal.ofBits .f32 0xBF000000#32) = _
  rw [Cert.Hand.ofBits_zero, Cert.Hand.ofBits_one, Cert.Hand.ofBits_neg_half]
  exact e

end Cert.ReferenceIdeal.Entry

end
-- ==== Proof.HostBridge.lean ====
/-
  The propagated features and the normalisation the kernel is given are the reference's.

  Both programs compute the degree, the normalisation n and one propagation step with the same operations, so those
  parts are the same terms. They differ in how the features are scaled between the two steps: the kernel multiplies the
  first step's result by n * n once, the reference by n and then by n again. Multiplication of extended reals is
  associative, so the second step is applied to the same array, and the propagated features agree. Nothing here looks
  inside the gather or the scatter-add: they are applied to equal arguments.
-/
import proofs.«139098_j30683246363241_2_alg».proof.Proof.Entering
import proofs.«139098_j30683246363241_2_alg».proof.Proof.RefEntry

noncomputable section

namespace Cert.Hand.Bridge

open Cert.KernelIdeal Idealize.ShloMosaic Idealize.ShloMosaic.ValueIdx

variable (x0 : S50000x96.Idx → EReal) (src dst : S800000.Idx → BitVec 32)

/-- The normalisation: the same operations in both programs. -/
theorem norm_eq : Cert.KernelIdeal.Entering.norm dst = Cert.ReferenceIdeal.ReadP.val_main_v10 (F := Ideal) dst := rfl

/-- The first scaling and the first step: the same operations in both programs. -/
theorem first_step_eq :
    Cert.KernelIdeal.Entering.step (mulf (F := Ideal) (φ := .f32) x0
        (broadcastInDim S50000x96 ![0, 1] Cert.KernelIdeal.Gen.bcast_S50000x1_S50000x96_0_1 (Cert.KernelIdeal.Entering.normColumn dst))) src dst
      = Cert.ReferenceIdeal.ReadP.val_main_v23 (F := Ideal) x0 src dst := rfl

/-- The reference's second step is the kernel's step, of the twice-scaled array. -/
theorem second_step_eq :
    Cert.ReferenceIdeal.ReadP.val_main_v39 (F := Ideal) x0 src dst = Cert.KernelIdeal.Entering.step (Cert.ReferenceIdeal.ReadP.val_main_v29 (F := Ideal) x0 src dst) src dst := rfl

/-- A vector broadcast to a column, at row r. -/
theorem column_of_apply (v : S50000.Idx → EReal) (r : Fin 50000) :
    broadcastInDim S50000x1 ![0] Cert.KernelIdeal.Gen.bcast_S50000_S50000x1_0 v (ix2 r 0) = v (ix1 r) :=
  broadcastInDim_apply _ Cert.KernelIdeal.Gen.bcast_S50000_S50000x1_0 v (ix2 r 0) (ix1 r) (fun a => match a with
    | ⟨0, _⟩ => by show r.val = if (50000 : Nat) = 1 then 0 else r.val; rw [if_neg (by decide)])

/-- The normalisation column at row r is the normalisation of r. -/
theorem normColumn_apply (r : Fin 50000) : Cert.KernelIdeal.Entering.normColumn dst (ix2 r 0) = Cert.ReferenceIdeal.ReadP.val_main_v10 (F := Ideal) dst (ix1 r) :=
  (column_of_apply (Cert.KernelIdeal.Entering.norm dst) r).trans (congrFun (norm_eq dst) (ix1 r))

/-- A column broadcast along the features, at (r, j), is the column's entry at row r. -/
theorem along_features_apply (v : S50000x1.Idx → EReal) (r : Fin 50000) (j : Fin 96) :
    broadcastInDim S50000x96 ![0, 1] Cert.KernelIdeal.Gen.bcast_S50000x1_S50000x96_0_1 v (ix2 r j) = v (ix2 r 0) :=
  broadcastInDim_apply _ Cert.KernelIdeal.Gen.bcast_S50000x1_S50000x96_0_1 v (ix2 r j) (ix2 r 0) (fun a => match a with
    | ⟨0, _⟩ => by show r.val = if (50000 : Nat) = 1 then 0 else r.val; rw [if_neg (by decide)]
    | ⟨1, _⟩ => by show (0 : Nat) = if (1 : Nat) = 1 then 0 else j.val; rw [if_pos rfl])

/-- The square of the column, broadcast along the features, at (r, j). -/
theorem squared_apply (r : Fin 50000) (j : Fin 96) :
    broadcastInDim S50000x96 ![0, 1] Cert.KernelIdeal.Gen.bcast_S50000x1_S50000x96_0_1
        (mulf (F := Ideal) (φ := .f32) (Cert.KernelIdeal.Entering.normColumn dst) (Cert.KernelIdeal.Entering.normColumn dst)) (ix2 r j)
      = Cert.ReferenceIdeal.ReadP.val_main_v10 (F := Ideal) dst (ix1 r) * Cert.ReferenceIdeal.ReadP.val_main_v10 (F := Ideal) dst (ix1 r) := by
  refine (along_features_apply _ r j).trans ?_
  refine (mulf_apply _ _ (ix2 r 0)).trans ?_
  rw [normColumn_apply]

/-- The reference's twice-scaled array at (r, j). -/
theorem twice_scaled_apply (r : Fin 50000) (j : Fin 96) :
    Cert.ReferenceIdeal.ReadP.val_main_v29 (F := Ideal) x0 src dst (ix2 r j)
      = (Cert.ReferenceIdeal.ReadP.val_main_v23 (F := Ideal) x0 src dst (ix2 r j) * Cert.ReferenceIdeal.ReadP.val_main_v10 (F := Ideal) dst (ix1 r))
          * Cert.ReferenceIdeal.ReadP.val_main_v10 (F := Ideal) dst (ix1 r) := by
  rw [Cert.ReferenceIdeal.ReadP.val_main_v29_apply, Cert.ReferenceIdeal.ReadP.val_main_v26_apply, Cert.ReferenceIdeal.ReadP.val_main_v28_apply, Cert.ReferenceIdeal.ReadP.val_main_v27_apply,
    Cert.ReferenceIdeal.ReadP.val_main_v25_apply, Cert.ReferenceIdeal.ReadP.val_main_v24_apply]
  have e1 : Cert.ReferenceIdeal.ReadP.idx_main_v27 (Cert.ReferenceIdeal.ReadP.idx_main_v28 (ix2 r j)) = ix1 r := funext fun a => Fin.ext (by
    match a with
    | ⟨0, _⟩ => rfl)
  have e2 : Cert.ReferenceIdeal.ReadP.idx_main_v24 (Cert.ReferenceIdeal.ReadP.idx_main_v25 (ix2 r j)) = ix1 r := funext fun a => Fin.ext (by
    match a with
    | ⟨0, _⟩ => rfl)
  rw [e1, e2, Ideal.mulf_def, Ideal.mulf_def]

/-- The propagated features agree. -/
theorem propagated_eq : Cert.KernelIdeal.Entering.propagated x0 src dst = Cert.ReferenceIdeal.ReadP.val_main_v39 (F := Ideal) x0 src dst := by
  rw [second_step_eq]
  unfold Cert.KernelIdeal.Entering.propagated
  refine congrArg (fun h => Cert.KernelIdeal.Entering.step h src dst) (funext fun i => ?_)
  obtain ⟨r, j, rfl⟩ : ∃ (r : Fin 50000) (j : Fin 96), i = ix2 r j := ⟨i 0, i 1, eq_ix2 i⟩
  refine (mulf_apply _ _ (ix2 r j)).trans ?_
  rw [squared_apply, twice_scaled_apply, first_step_eq]
  exact (mul_assoc _ _ _).symm

end Cert.Hand.Bridge

end
-- ==== Proof.Joined.lean ====
/-
  The kernel's result array is the reference's result, index by index.

  Entry (r, q) of the kernel's array is the two-halves expression of the arrays its windows found; those arrays are the
  features, the propagated features, the normalisation column, the two weight matrices and the two halves of the
  projection, and the first three are the reference's own (the propagated features up to the associativity of a product).
  The normalisation of r is a non-negative real, so the factor moves across the contraction with W_sgc, the two halves join
  into one sum over the 256 hidden units, and that sum is the reference's last contraction at (r, q).
-/
import proofs.«139098_j30683246363241_2_alg».proof.Proof.KernelArray
import proofs.«139098_j30683246363241_2_alg».proof.Proof.HostBridge

noncomputable section

namespace Cert.Hand.Joined

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The argument arrays as the kernel is launched with them. -/
abbrev a0 : S50000x96.Idx → EReal := m ((c : Thread nD τ).loc main_arg0)
abbrev a1 : S800000.Idx → BitVec 32 := m ((c : Thread nD τ).loc main_arg1)
abbrev a2 : S800000.Idx → BitVec 32 := m ((c : Thread nD τ).loc main_arg2)
abbrev a3 : S128x96.Idx → EReal := m ((c : Thread nD τ).loc main_arg3)
abbrev a4 : S128x96.Idx → EReal := m ((c : Thread nD τ).loc main_arg4)
abbrev a5 : S40x256.Idx → EReal := m ((c : Thread nD τ).loc main_arg5)

/-- The features window finds the features. -/
theorem feat_is : Cert.KernelIdeal.Whole.feat m c = a0 m c := by
  show (V m c main_arg0 : S50000x96.Idx → EReal) = _
  exact V_main_arg0 m c

/-- The second window finds the reference's propagated features, before their last scaling. -/
theorem prop_is : Cert.KernelIdeal.Whole.prop m c = Cert.ReferenceIdeal.ReadP.val_main_v39 (F := Ideal) (a0 m c) (a1 m c) (a2 m c) := by
  show (V m c main_v34 : S50000x96.Idx → EReal) = _
  exact (Cert.KernelIdeal.Entering.propagated_found m c).trans (Cert.Hand.Bridge.propagated_eq (a0 m c) (a1 m c) (a2 m c))

/-- The third window finds, at row r, the reference's normalisation of r. -/
theorem norm_is (r : Fin 50000) : Cert.KernelIdeal.Whole.normCol m c (ix2 r 0) = Cert.ReferenceIdeal.Entry.norm (a2 m c) r := by
  show (V m c main_v9 : S50000x1.Idx → EReal) (ix2 r 0) = _
  exact (congrFun (Cert.KernelIdeal.Entering.normColumn_found m c) (ix2 r 0)).trans (Cert.Hand.Bridge.normColumn_apply (a2 m c) r)

/-- The two weight windows find the weight matrices. -/
theorem wLin_is (k : Fin 128) (j : Fin 96) : Cert.KernelIdeal.Whole.wLin m c (ix2 k j) = a4 m c (ix2 k j) := by
  show (V m c main_v35 : S128x96.Idx → EReal) (ix2 k j) = _
  exact congrFun (Cert.KernelIdeal.Entering.wLin_found m c) (ix2 k j)
theorem wSgc_is (k : Fin 128) (j : Fin 96) : Cert.KernelIdeal.Whole.wSgc m c (ix2 k j) = a3 m c (ix2 k j) := by
  show (V m c main_v36 : S128x96.Idx → EReal) (ix2 k j) = _
  exact congrFun (Cert.KernelIdeal.Entering.wSgc_found m c) (ix2 k j)

/-- The first half of the projection at (q, k) is the projection at column k. -/
theorem projPlain_apply (w : S40x256.Idx → EReal) (q : Fin 40) (k : Fin 128) :
    Cert.KernelIdeal.Entering.projPlain w (ix2 q k) = w (ix2 q ⟨k.val, by have := k.isLt; omega⟩) := by
  unfold Cert.KernelIdeal.Entering.projPlain
  show extractStridedSlice S40x128 ![0, 0] w slices_S40x256_S40x128_0_0 (ix2 q k) = _
  exact extractStridedSlice_apply _ w _ (ix2 q k) _ (fun a => match a with
    | ⟨0, _⟩ => by show q.val = 0 + q.val; omega
    | ⟨1, _⟩ => by show k.val = 0 + k.val; omega)

/-- The second half of the projection at (q, k) is the projection at column 128 + k. -/
theorem projProp_apply (w : S40x256.Idx → EReal) (q : Fin 40) (k : Fin 128) :
    Cert.KernelIdeal.Entering.projProp w (ix2 q k) = w (ix2 q ⟨128 + k.val, by have := k.isLt; omega⟩) := by
  unfold Cert.KernelIdeal.Entering.projProp
  show extractStridedSlice S40x128 ![0, 128] w slices_S40x256_S40x128_0_128 (ix2 q k) = _
  exact extractStridedSlice_apply _ w _ (ix2 q k) _ (fun a => match a with
    | ⟨0, _⟩ => by show q.val = 0 + q.val; omega
    | ⟨1, _⟩ => by show 128 + k.val = 128 + k.val; rfl)

theorem projPlain_is (q : Fin 40) (k : Fin 128) :
    Cert.KernelIdeal.Whole.wProjPlain m c (ix2 q k) = a5 m c (ix2 q ⟨k.val, by have := k.isLt; omega⟩) := by
  show (V m c main_v38 : S40x128.Idx → EReal) (ix2 q k) = _
  exact (congrFun (Cert.KernelIdeal.Entering.projPlain_found m c) (ix2 q k)).trans (projPlain_apply (a5 m c) q k)
theorem projProp_is (q : Fin 40) (k : Fin 128) :
    Cert.KernelIdeal.Whole.wProjProp m c (ix2 q k) = a5 m c (ix2 q ⟨128 + k.val, by have := k.isLt; omega⟩) := by
  show (V m c main_v40 : S40x128.Idx → EReal) (ix2 q k) = _
  exact (congrFun (Cert.KernelIdeal.Entering.projProp_found m c) (ix2 q k)).trans (projProp_apply (a5 m c) q k)

/-- The kernel's result array is the reference's result term of the same arguments. -/
theorem whole_eq : Cert.KernelIdeal.Whole.whole m c
    = Cert.ReferenceIdeal.ReadP.val_main_v47 (F := Ideal) (a0 m c) (a1 m c) (a2 m c) (a3 m c) (a4 m c) (a5 m c) := by
  funext i
  obtain ⟨r, q, rfl⟩ : ∃ (r : Fin 50000) (q : Fin 40), i = ix2 r q := ⟨i 0, i 1, eq_ix2 i⟩
  rw [Cert.ReferenceIdeal.Entry.result_apply]
  obtain ⟨x, hx, hn⟩ := Cert.ReferenceIdeal.Entry.norm_nonneg_real (a2 m c) r
  rw [hn, ← Cert.Hand.splitForm_eq_joinedForm _ _ hx _ _ _]
  refine (Cert.KernelIdeal.Whole.whole_apply m c (ix2 r q) r q rfl rfl).trans ?_
  unfold Cert.KernelIdeal.Whole.entry
  exact Cert.Hand.splitForm_congr (funext fun j => congrFun (feat_is m c) (ix2 r j))
    (funext fun j => congrFun (prop_is m c) (ix2 r j)) ((norm_is m c r).trans hn)
    (funext fun k => funext fun j => wLin_is m c k j) (funext fun k => funext fun j => wSgc_is m c k j)
    (funext fun k => projPlain_is m c q k) (funext fun k => projProp_is m c q k)

end Cert.Hand.Joined

end
-- ==== Proof.lean ====
/-
  The certificate of a fused graph-convolution head: a kernel that, for each block of 5000 nodes, projects the
  node features through W_lin and the twice-propagated features through W_sgc, scales the second by the symmetric
  degree normalisation, and projects both onto the 40 classes with the two halves of W_proj — against the plain
  reference, which concatenates the two hidden vectors and projects them with W_proj whole.

  On the extended reals the two programs compute one function. The propagation (gather by source, add at destination) is
  applied by both to equal arrays: the kernel scales by n * n between the two steps, the reference by n twice. The
  kernel applies the last scaling by n after the contraction with W_sgc, the reference before it; n is a power with
  exponent -1/2 of the degree (or of 1), hence a non-negative real whatever the edges are, and a non-negative real factor
  moves across a finite sum of extended reals. The split projection is a regrouping of one sum. So the claim holds for
  every input, and the precondition that the float inputs are finite is not used.

  The frames are the generated ones (the reference's is its run with the result dropped); the ideal pass rewrote nothing,
  so the kernel's idealization is its own text.
-/
import proofs.«139098_j30683246363241_2_alg».proof.Defs
import proofs.«139098_j30683246363241_2_alg».proof.Proof.Gen.Kernel
import proofs.«139098_j30683246363241_2_alg».proof.Proof.Gen.Kernel.Skeleton
import proofs.«139098_j30683246363241_2_alg».proof.Proof.Gen.Kernel.Launch
import proofs.«139098_j30683246363241_2_alg».proof.Proof.Gen.Kernel.Points
import proofs.«139098_j30683246363241_2_alg».proof.Proof.Gen.Kernel.Frame
import proofs.«139098_j30683246363241_2_alg».proof.Proof.Gen.KernelIdeal
import proofs.«139098_j30683246363241_2_alg».proof.Proof.Gen.KernelIdeal.Skeleton
import proofs.«139098_j30683246363241_2_alg».proof.Proof.Gen.KernelIdeal.Launch
import proofs.«139098_j30683246363241_2_alg».proof.Proof.Gen.KernelIdeal.Points
import proofs.«139098_j30683246363241_2_alg».proof.Proof.Gen.KernelIdeal.Frame
import proofs.«139098_j30683246363241_2_alg».proof.Proof.Gen.ReferenceIdeal
import proofs.«139098_j30683246363241_2_alg».proof.Proof.Gen.Pre_finite_inputs
import proofs.«139098_j30683246363241_2_alg».proof.Proof.Gen.KernelIdeal.Value
import proofs.«139098_j30683246363241_2_alg».proof.Proof.Joined
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end, the kernel's result array at its whole-array function of the arguments and the reference's at its
    composed term of arguments that agree: one function. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, (hagree c).1, (hagree c).2.1, (hagree c).2.2.1, (hagree c).2.2.2.1,
    (hagree c).2.2.2.2.1, (hagree c).2.2.2.2.2]
  exact (Cert.Hand.Joined.whole_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
